-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S1x16x1x1 : Shape := ⟨4, ![1, 16, 1, 1]⟩
abbrev S2x2048 : Shape := ⟨2, ![2, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel
  bcast_S_S1x16x1x1 : S_.BroadcastsInDim S1x16x1x1 (![] : Fin 0 → Fin S1x16x1x1.rank)
  reducesTo_S1x16x1x1_S_d0_1_2_3 : S1x16x1x1.ReducesTo [0, 1, 2, 3] S_

variable [Facts]

def fn_part1 {F : FTy → Type} [FloatOps F] (main_v13 : IVec S_ 1) (main_v16 : IVec S1x16x1x1 1) : IVec S_ 1 :=
  let main_c_5 : IVec S_ 1 := constantI S_ 1 1#1
  let main_v17 : IVec S_ 1 := (fun x v => Host.reduce IntOp.andi x v reducesTo_S1x16x1x1_S_d0_1_2_3 h_S_) main_v16 main_c_5
  let main_v18 : IVec S_ 1 := andi main_v13 main_v17
  main_v18

def fn {F : FTy → Type} [FloatOps F] (main_arg0 : FVec F S2x16x2048x64 .f32) (main_arg1 : FVec F S2x16x2048x64 .f32) (main_arg2 : FVec F S2x16x2048x64 .f32) (main_arg3 : FVec F S1x16x1x1 .f32) (main_arg4 : IVec S2x2048 32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  let main_v14 : FVec F S1x16x1x1 .f32 := Host.absf main_arg3
  let main_cst_4 : FVec F S_ .f32 := constant S_ .f32 0x7F800000#32
  let main_v15 : FVec F S1x16x1x1 .f32 := broadcastInDim S1x16x1x1 ![] bcast_S_S1x16x1x1 main_cst_4
  let main_v16 : IVec S1x16x1x1 1 := cmpf .olt main_v14 main_v15
  fn_part1 (F := F) main_v13 main_v16
-- ==== Kernel.lean ====
abbrev S2x16x2048x64 : Shape := ⟨4, ![2, 16, 2048, 64]⟩
abbrev S1x16x1x1 : Shape := ⟨4, ![1, 16, 1, 1]⟩
abbrev S2x2048 : Shape := ⟨2, ![2, 2048]⟩
abbrev S_ : Shape := ⟨0, ![]⟩
abbrev S2x1x2048 : Shape := ⟨3, ![2, 1, 2048]⟩
abbrev S2x16x2048x2048 : Shape := ⟨4, ![2, 16, 2048, 2048]⟩
abbrev S1x1x512x64 : Shape := ⟨4, ![1, 1, 512, 64]⟩
abbrev S1x1x2048x64 : Shape := ⟨4, ![1, 1, 2048, 64]⟩
abbrev S1x1x2048 : Shape := ⟨3, ![1, 1, 2048]⟩
abbrev S1x1x1x1 : Shape := ⟨4, ![1, 1, 1, 1]⟩
abbrev S1x1x512x2048 : Shape := ⟨4, ![1, 1, 512, 2048]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩
abbrev S1x2048 : Shape := ⟨2, ![1, 2048]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S1x16x1x1, .f32⟩
  | .hbm, ⟨4, _⟩ => ⟨S2x2048, .i32⟩
  | .hbm, ⟨5, _⟩ => ⟨S2x2048, .f32⟩
  | .hbm, ⟨6, _⟩ => ⟨S_, .f32⟩
  | .hbm, ⟨7, _⟩ => ⟨S2x2048, .f32⟩
  | .hbm, ⟨8, _⟩ => ⟨S2x2048, .f32⟩
  | .hbm, ⟨9, _⟩ => ⟨S2x1x2048, .f32⟩
  | .hbm, ⟨10, _⟩ => ⟨S2x16x2048x64, .f32⟩
  | .hbm, ⟨11, _⟩ => ⟨S2x16x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x2048, .f32⟩
  | .local _ .vmem, ⟨7, _⟩ => ⟨S1x1x2048, .f32⟩
  | .local _ .vmem, ⟨8, _⟩ => ⟨S1x1x1x1, .f32⟩
  | .local _ .vmem, ⟨9, _⟩ => ⟨S1x1x1x1, .f32⟩
  | .local _ .vmem, ⟨10, _⟩ => ⟨S1x1x512x64, .f32⟩
  | .local _ .vmem, ⟨11, _⟩ => ⟨S1x1x512x64, .f32⟩
  | .local _ .vmem, ⟨12, _⟩ => ⟨S1x1x512x2048, .f32⟩
  | .local _ .vmem, ⟨13, _⟩ => ⟨S1x1x512x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

class Facts₀ : Prop where
  bcast_S_S2x2048 : S_.BroadcastsInDim S2x2048 (![] : Fin 0 → Fin S2x2048.rank)
  bcast_S2x2048_S2x1x2048_0_2 : S2x2048.BroadcastsInDim S2x1x2048 (![0, 2] : Fin 2 → Fin S2x1x2048.rank)
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  bitsLt_bf16_f32 : FTy.bits .bf16 < FTy.bits .f32
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  transposes_S2048x64_p1_0_S64x2048 : S2048x64.Transposes [1, 0] S64x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S512x2048 : S1x2048.Broadcasts S512x2048
  inb_S1x1x1x1_S1x1x1x1_0_0_0_0 : ∀ a, (![0, 0, 0, 0] : Fin 4 → Nat) a + S1x1x1x1.size a ≤ S1x1x1x1.size a
  h_S1x1x1x1 : 0 < S1x1x1x1.numel
  inpos_S1x1x1x1_p0_0_0_0 : ∀ a, (![0, 0, 0, 0] : Fin 4 → Nat) a < S1x1x1x1.size a
  reduces_S512x2048_S512 : S512x2048.Reduces [1] S512
  shapeCasts_S512_S512x1 : S512.ShapeCasts S512x1
  broadcasts_S512x1_S512x2048 : S512x1.Broadcasts S512x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  shapeCasts_S512x64_S1x1x512x64 : S512x64.ShapeCasts S1x1x512x64
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x16x2048x64.size a
  hwx0_0 : ∀ i : grid0.Coords, EltTy.bits .f32 = 32 ∨ (Rect.block (s := S2x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .f32 = 32 ∨ (Rect.block (s := S2x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S2x1x2048.size a
  hwx0_3 : ∀ i : grid0.Coords, EltTy.bits .f32 = 32 ∨ (Rect.block (s := S2x1x2048) S1x1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1x1.size a ≤ S1x16x1x1.size a
  hwx0_4 : ∀ i : grid0.Coords, EltTy.bits .f32 = 32 ∨ (Rect.block (s := S1x16x1x1) S1x1x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x64.size a ≤ S2x16x2048x64.size a
  hwx0_5 : ∀ i : grid0.Coords, EltTy.bits .f32 = 32 ∨ (Rect.block (s := S2x16x2048x64) S1x1x512x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x512x2048.size a ≤ S2x16x2048x2048.size a
  hwx0_6 : ∀ i : grid0.Coords, EltTy.bits .f32 = 32 ∨ (Rect.block (s := S2x16x2048x2048) S1x1x512x2048.size (cc0_transform_6 i) (hinb0_6 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x1x1x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S1x1x512x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S1x1x512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S1x16x1x1 : Shape := ⟨4, ![1, 16, 1, 1]⟩
abbrev S2x2048 : Shape := ⟨2, ![2, 2048]⟩
abbrev S2x16x2048x2048 : Shape := ⟨4, ![2, 16, 2048, 2048]⟩
abbrev S_ : Shape := ⟨0, ![]⟩
abbrev S2x1x1x2048 : Shape := ⟨4, ![2, 1, 1, 2048]⟩
abbrev S2x16x2048 : Shape := ⟨3, ![2, 16, 2048]⟩
abbrev S2x16x2048x1 : Shape := ⟨4, ![2, 16, 2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S1x16x1x1, .f32⟩
  | .hbm, ⟨4, _⟩ => ⟨S2x2048, .i32⟩
  | .hbm, ⟨5, _⟩ => ⟨S2x16x2048x2048, .f32⟩
  | .hbm, ⟨6, _⟩ => ⟨S_, .f32⟩
  | .hbm, ⟨7, _⟩ => ⟨S2x16x2048x2048, .f32⟩
  | .hbm, ⟨8, _⟩ => ⟨S2x16x2048x2048, .f32⟩
  | .hbm, ⟨9, _⟩ => ⟨S2x2048, .f32⟩
  | .hbm, ⟨10, _⟩ => ⟨S2x1x1x2048, .f32⟩
  | .hbm, ⟨11, _⟩ => ⟨S_, .f32⟩
  | .hbm, ⟨12, _⟩ => ⟨S2x1x1x2048, .f32⟩
  | .hbm, ⟨13, _⟩ => ⟨S2x1x1x2048, .f32⟩
  | .hbm, ⟨14, _⟩ => ⟨S2x16x2048x2048, .f32⟩
  | .hbm, ⟨15, _⟩ => ⟨S2x16x2048x2048, .f32⟩
  | .hbm, ⟨16, _⟩ => ⟨S_, .f32⟩
  | .hbm, ⟨17, _⟩ => ⟨S2x16x2048, .f32⟩
  | .hbm, ⟨18, _⟩ => ⟨S2x16x2048x1, .f32⟩
  | .hbm, ⟨19, _⟩ => ⟨S2x16x2048x2048, .f32⟩
  | .hbm, ⟨20, _⟩ => ⟨S2x16x2048x2048, .f32⟩
  | .hbm, ⟨21, _⟩ => ⟨S2x16x2048x2048, .f32⟩
  | .hbm, ⟨22, _⟩ => ⟨S2x16x2048x1, .f32⟩
  | .hbm, ⟨23, _⟩ => ⟨S2x16x2048x1, .f32⟩
  | .hbm, ⟨24, _⟩ => ⟨S2x16x2048x1, .f32⟩
  | .hbm, ⟨25, _⟩ => ⟨S_, .f32⟩
  | .hbm, ⟨26, _⟩ => ⟨S2x16x2048x1, .f32⟩
  | .hbm, ⟨27, _⟩ => ⟨S2x16x2048x1, .f32⟩
  | .hbm, ⟨28, _⟩ => ⟨S_, .f32⟩
  | .hbm, ⟨29, _⟩ => ⟨S2x16x2048, .f32⟩
  | .hbm, ⟨30, _⟩ => ⟨S2x16x2048x1, .f32⟩
  | .hbm, ⟨31, _⟩ => ⟨S2x16x2048x1, .f32⟩
  | .hbm, ⟨32, _⟩ => ⟨S2x16x2048x2048, .f32⟩
  | .hbm, ⟨33, _⟩ => ⟨S2x16x2048x2048, .f32⟩
  | .hbm, ⟨34, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S2x2048_S2x1x1x2048_0_3 : S2x2048.BroadcastsInDim S2x1x1x2048 (![0, 3] : Fin 2 → Fin S2x1x1x2048.rank)
  bcast_S_S2x1x1x2048 : S_.BroadcastsInDim S2x1x1x2048 (![] : Fin 0 → Fin S2x1x1x2048.rank)
  bcast_S2x1x1x2048_S2x16x2048x2048_0_1_2_3 : S2x1x1x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  bcast_S1x16x1x1_S2x16x2048x1_0_1_2_3 : S1x16x1x1.BroadcastsInDim S2x16x2048x1 (![0, 1, 2, 3] : Fin 4 → Fin S2x16x2048x1.rank)
  bcast_S_S2x16x2048x1 : S_.BroadcastsInDim S2x16x2048x1 (![] : Fin 0 → Fin S2x16x2048x1.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.LeakyRow.lean ====
/-
  One query row of an attention with a "leaky" softmax, over the extended reals.

  A query row `qr` (64 features) meets every key `k` of a key matrix `km` (2048 keys): the score is the inner
  product over the features, times 1/8, plus an additive mask term `mr k` of the key. The row's maximum `M` is
  the maximum of its 2048 scores (from -∞). The softmax is leaky: its denominator is the sum of the
  `exp (score - M)` over the keys plus one more term, `exp (cc - M) · 2048`, for a constant `cc` of the head, so
  the 2048 probabilities of a row sum to less than one. The output row is the probabilities' combination of the rows
  of a value matrix `vm`.

  Everything after the scores is a function of the row of scores `s` alone (and of `cc`, `vm`), which is how the
  definitions below are cut: two programs that give one row the same scores give it the same probabilities and
  the same output. The float literals are kept as the words the programs spell (1/8, -∞, 2048).
-/
import Idealize.ShloMosaic.PureOps.Ideal
import Idealize.ShloMosaic.PureOps.Ideal.Laws

noncomputable section

namespace Cert.LeakyRow

open Idealize.ShloMosaic

/-- The score of the query row against key `k`: ⟨qr, km k⟩ / 8 + the key's mask term. -/
def score (qr : Fin 64 → EReal) (km : Fin 2048 → Fin 64 → EReal) (mr : Fin 2048 → EReal) (k : Fin 2048) : EReal :=
  (∑ d : Fin 64, qr d * km k d) * Ideal.ofBits .f32 0x3E000000#32 + mr k

/-- The maximum of a row of scores, folded from -∞. -/
def rowMax (s : Fin 2048 → EReal) : EReal :=
  (Finset.univ : Finset (Fin 2048)).fold max (Ideal.ofBits .f32 0xFF800000#32) s

/-- `exp (s k - max s)`: the numerator of key `k`'s probability. -/
def expo (s : Fin 2048 → EReal) (k : Fin 2048) : EReal := Ideal.exp (s k - rowMax s)

/-- The leaky denominator: the numerators' sum plus `exp (cc - max s) · 2048`. -/
def denom (s : Fin 2048 → EReal) (cc : EReal) : EReal :=
  (∑ k : Fin 2048, expo s k) + Ideal.exp (cc - rowMax s) * Ideal.ofBits .f32 0x45000000#32

/-- Key `k`'s probability in the row. -/
def prob (s : Fin 2048 → EReal) (cc : EReal) (k : Fin 2048) : EReal := Ideal.div (expo s k) (denom s cc)

/-- Feature `d` of the row's output: the probabilities' combination of the value matrix's column `d`. -/
def outv (s : Fin 2048 → EReal) (cc : EReal) (vm : Fin 2048 → Fin 64 → EReal) (d : Fin 64) : EReal :=
  ∑ k : Fin 2048, prob s cc k * vm k d

end Cert.LeakyRow

end
-- ==== Proof.Tile.lean ====
/-
  The vector operations of one tile of the kernel, read at an index, at the ideal values.

  A grid point works on a tile of 512 query rows against all 2048 keys of one (batch, head). Its blocks arrive
  with leading unit axes ([1,1,512,64], [1,1,2048,64], [1,1,2048], [1,1,1,1]) and are viewed as matrices; the key
  block is transposed for the first product; a row vector [1,2048] is copied down the 512 rows and a column
  [512,1] across the 2048 keys. Each lemma says which element of its operand such an operation reads at
  (row r, key k) or (row r, feature d); the two matrix products into a zero accumulator are the plain sums
  over the contracted axis, and the two lane reductions are the fold of max from -∞ and the sum over the keys.
-/
import proofs.«150478_j40973988004726_1_alg».proof.Proof.Gen.KernelIdeal
import proofs.«150478_j40973988004726_1_alg».proof.Proof.LeakyRow
import Idealize.ShloMosaic.Lib.ValueIdx
import Idealize.ShloMosaic.Lib.Pipeline.Value
import Idealize.ShloMosaic.PureOps.Ideal.Laws

noncomputable section

namespace Cert.KernelIdeal.Tile

open Cert.KernelIdeal Idealize.ShloMosaic Idealize.ShloMosaic.ValueIdx

variable {α : Type}

/-! ## Views of the blocks -/

/-- A [1,1,512,64] block viewed [512,64]: (r, d) reads (0, 0, r, d). -/
theorem cast_q (x : S1x1x512x64.Idx → α) (h : S1x1x512x64.ShapeCasts S512x64) (r : Fin 512) (d : Fin 64) :
    shapeCast S512x64 x h (ix2 r d) = x (ix4 0 0 r d) :=
  shapeCast_apply x h (ix2 r d) (ix4 0 0 r d) (by
    rw [Shape.rowMajor_val_four, Shape.rowMajor_val_two]
    show ((0 * 1 + 0) * 512 + r.val) * 64 + d.val = r.val * 64 + d.val; omega)

/-- A [1,1,2048,64] block viewed [2048,64]: (k, d) reads (0, 0, k, d). -/
theorem cast_kv (x : S1x1x2048x64.Idx → α) (h : S1x1x2048x64.ShapeCasts S2048x64) (k : Fin 2048) (d : Fin 64) :
    shapeCast S2048x64 x h (ix2 k d) = x (ix4 0 0 k d) :=
  shapeCast_apply x h (ix2 k d) (ix4 0 0 k d) (by
    rw [Shape.rowMajor_val_four, Shape.rowMajor_val_two]
    show ((0 * 1 + 0) * 2048 + k.val) * 64 + d.val = k.val * 64 + d.val; omega)

/-- The transposed key matrix at (d, k) is the key matrix at (k, d). -/
theorem transpose_k (x : S2048x64.Idx → α) (h : S2048x64.Transposes [1, 0] S64x2048) (d : Fin 64) (k : Fin 2048) :
    transpose S64x2048 [1, 0] x h (ix2 d k) = x (ix2 k d) :=
  transpose_apply [1, 0] x h (ix2 d k) (ix2 k d) (fun b => match b with | ⟨0, _⟩ => rfl | ⟨1, _⟩ => rfl)

/-- A [1,1,2048] block viewed as one row [1,2048] and copied down the 512 rows: (r, k) reads (0, 0, k). -/
theorem mask_row (x : S1x1x2048.Idx → α) (h : S1x1x2048.ShapeCasts S1x2048) (hb : S1x2048.Broadcasts S512x2048)
    (r : Fin 512) (k : Fin 2048) :
    broadcastTo S512x2048 (shapeCast S1x2048 x h) hb (ix2 r k) = x (ix3 0 0 k) := by
  refine (broadcastTo_apply _ hb (ix2 r k) (ix2 0 k) (fun a => match a with
    | ⟨0, _⟩ => by show (0 : Nat) = (if (1 : Nat) = 1 then 0 else r.val); rw [if_pos rfl]
    | ⟨1, _⟩ => by show k.val = (if (2048 : Nat) = 1 then 0 else k.val); rw [if_neg (by decide)])).trans ?_
  exact shapeCast_apply x h (ix2 0 k) (ix3 0 0 k) (by
    rw [Shape.rowMajor_val_three, Shape.rowMajor_val_two]
    show ((0 * 1 + 0) * 2048 + k.val) = 0 * 2048 + k.val; omega)

/-- A vector [512] viewed as a column [512,1]: (r, 0) reads r. -/
theorem col_cast (x : S512.Idx → α) (h : S512.ShapeCasts S512x1) (r : Fin 512) :
    shapeCast S512x1 x h (ix2 r 0) = x (ix1 r) :=
  shapeCast_apply x h (ix2 r 0) (ix1 r) (by
    rw [Shape.rowMajor_val_one, Shape.rowMajor_val_two]
    show r.val = r.val * 1 + 0; omega)

/-- A column [512,1] copied across the 2048 keys: (r, k) reads (r, 0). -/
theorem col_bcast (x : S512x1.Idx → α) (hb : S512x1.Broadcasts S512x2048) (r : Fin 512) (k : Fin 2048) :
    broadcastTo S512x2048 x hb (ix2 r k) = x (ix2 r 0) :=
  broadcastTo_apply x hb (ix2 r k) (ix2 r 0) (fun a => match a with
    | ⟨0, _⟩ => by show r.val = (if (512 : Nat) = 1 then 0 else r.val); rw [if_neg (by decide)]
    | ⟨1, _⟩ => by show (0 : Nat) = (if (1 : Nat) = 1 then 0 else k.val); rw [if_pos rfl])

/-- The one element of a [1,1,1,1] block. -/
theorem extract_c (x : S1x1x1x1.Idx → α) (h : ∀ a, (![0, 0, 0, 0] : Fin 4 → Nat) a < S1x1x1x1.size a) :
    extractAt ![0, 0, 0, 0] x h = x (ix4 0 0 0 0) :=
  congrArg x (funext fun a => Fin.ext (by
    match a with | ⟨0, _⟩ => rfl | ⟨1, _⟩ => rfl | ⟨2, _⟩ => rfl | ⟨3, _⟩ => rfl))

/-! ## The two matrix products, into a zero accumulator -/

theorem qk_lhs_0 (i : S512x2048.Idx) (q : dot_S512x64_S64x2048_S512x2048_1_0_0_1_n_n.contr.Idx) : (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
theorem qk_lhs_1 (i : S512x2048.Idx) (q : dot_S512x64_S64x2048_S512x2048_1_0_0_1_n_n.contr.Idx) : (dot_S512x64_S64x2048_S512x2048_1_0_0_1_n_n.lhsIdx i q 1).val = (q ⟨0, by decide⟩).val :=
  dot_S512x64_S64x2048_S512x2048_1_0_0_1_n_n.lhsIdx_val_of_single rfl i q
theorem qk_rhs_0 (i : S512x2048.Idx) (q : dot_S512x64_S64x2048_S512x2048_1_0_0_1_n_n.contr.Idx) : (dot_S512x64_S64x2048_S512x2048_1_0_0_1_n_n.rhsIdx i q 0).val = (q ⟨0, by decide⟩).val :=
  dot_S512x64_S64x2048_S512x2048_1_0_0_1_n_n.rhsIdx_val_of_single rfl i q
theorem qk_rhs_1 (i : S512x2048.Idx) (q : dot_S512x64_S64x2048_S512x2048_1_0_0_1_n_n.contr.Idx) : (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

/-- Scores: (queries [512,64]) · (keys transposed [64,2048]) at (r, k) is the sum over the 64 features. -/
theorem qk_apply (A : FVec Ideal S512x64 .bf16) (B : FVec Ideal S64x2048 .bf16) (r : Fin 512) (k : Fin 2048) :
    matmul dot_S512x64_S64x2048_S512x2048_1_0_0_1_n_n none A B (constant (F := Ideal) S512x2048 .f32 0x00000000#32) (ix2 r k)
      = ∑ d : Fin 64, A (ix2 r d) * B (ix2 d k) := by
  refine (Ideal.matmul_constant_zero_apply dot_S512x64_S64x2048_S512x2048_1_0_0_1_n_n none A B (ix2 r k)).trans ?_
  rw [← Equiv.sum_comp (contrEquiv1 dot_S512x64_S64x2048_S512x2048_1_0_0_1_n_n 64 rfl rfl).symm]
  refine Finset.sum_congr rfl fun d _ => ?_
  have hd := contrEquiv1_symm_val dot_S512x64_S64x2048_S512x2048_1_0_0_1_n_n 64 rfl rfl d
  have el : dot_S512x64_S64x2048_S512x2048_1_0_0_1_n_n.lhsIdx (ix2 r k) ((contrEquiv1 dot_S512x64_S64x2048_S512x2048_1_0_0_1_n_n 64 rfl rfl).symm d) = ix2 r d :=
    funext fun a => Fin.ext (by
      match a with
      | ⟨0, _⟩ => exact qk_lhs_0 _ _
      | ⟨1, _⟩ => exact (qk_lhs_1 _ _).trans hd)
  have er : dot_S512x64_S64x2048_S512x2048_1_0_0_1_n_n.rhsIdx (ix2 r k) ((contrEquiv1 dot_S512x64_S64x2048_S512x2048_1_0_0_1_n_n 64 rfl rfl).symm d) = ix2 d k :=
    funext fun a => Fin.ext (by
      match a with
      | ⟨0, _⟩ => exact (qk_rhs_0 _ _).trans hd
      | ⟨1, _⟩ => exact qk_rhs_1 _ _)
  rw [el, er]

theorem pv_lhs_0 (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem pv_lhs_1 (i : S512x64.Idx) (q : dot_S512x2048_S2048x64_S512x64_1_0_0_1_n_n.contr.Idx) : (dot_S512x2048_S2048x64_S512x64_1_0_0_1_n_n.lhsIdx i q 1).val = (q ⟨0, by decide⟩).val :=
  dot_S512x2048_S2048x64_S512x64_1_0_0_1_n_n.lhsIdx_val_of_single rfl i q
theorem pv_rhs_0 (i : S512x64.Idx) (q : dot_S512x2048_S2048x64_S512x64_1_0_0_1_n_n.contr.Idx) : (dot_S512x2048_S2048x64_S512x64_1_0_0_1_n_n.rhsIdx i q 0).val = (q ⟨0, by decide⟩).val :=
  dot_S512x2048_S2048x64_S512x64_1_0_0_1_n_n.rhsIdx_val_of_single rfl i q
theorem pv_rhs_1 (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Outputs: (probabilities [512,2048]) · (values [2048,64]) at (r, d) is the sum over the 2048 keys. -/
theorem pv_apply (A : FVec Ideal S512x2048 .bf16) (B : FVec Ideal S2048x64 .bf16) (r : Fin 512) (d : Fin 64) :
    matmul dot_S512x2048_S2048x64_S512x64_1_0_0_1_n_n none A B (constant (F := Ideal) S512x64 .f32 0x00000000#32) (ix2 r d)
      = ∑ k : Fin 2048, A (ix2 r k) * B (ix2 k d) := by
  refine (Ideal.matmul_constant_zero_apply dot_S512x2048_S2048x64_S512x64_1_0_0_1_n_n none A B (ix2 r d)).trans ?_
  rw [← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r d) ((contrEquiv1 dot_S512x2048_S2048x64_S512x64_1_0_0_1_n_n 2048 rfl rfl).symm k) = ix2 r k :=
    funext fun a => Fin.ext (by
      match a with
      | ⟨0, _⟩ => exact pv_lhs_0 _ _
      | ⟨1, _⟩ => exact (pv_lhs_1 _ _).trans hk)
  have er : dot_S512x2048_S2048x64_S512x64_1_0_0_1_n_n.rhsIdx (ix2 r d) ((contrEquiv1 dot_S512x2048_S2048x64_S512x64_1_0_0_1_n_n 2048 rfl rfl).symm k) = ix2 k d :=
    funext fun a => Fin.ext (by
      match a with
      | ⟨0, _⟩ => exact (pv_rhs_0 _ _).trans hk
      | ⟨1, _⟩ => exact pv_rhs_1 _ _)
  rw [el, er]

/-- A [512,64] result stored as a [1,1,512,64] block: (a, b, r, d) reads (r, d). -/
theorem uncast_out (x : S512x64.Idx → α) (h : S512x64.ShapeCasts S1x1x512x64) (a b : Fin 1) (r : Fin 512) (d : Fin 64) :
    shapeCast S1x1x512x64 x h (ix4 a b r d) = x (ix2 r d) :=
  shapeCast_apply x h (ix4 a b r d) (ix2 r d) (by
    rw [Shape.rowMajor_val_four, Shape.rowMajor_val_two]
    show r.val * 64 + d.val = ((a.val * 1 + b.val) * 512 + r.val) * 64 + d.val
    have := a.isLt; have := b.isLt; omega)

/-! ## The two lane reductions -/

/-- A row's maximum: the fold of max, from -∞, over the row's 2048 entries. -/
theorem rowmax_apply (X : FVec Ideal S512x2048 .f32) (h : S512x2048.Reduces [1] S512) (hφ : FKind.Formats .f32)
    (hacc : (0xFF800000#32 : BitVec 32) = FKind.maximumf.neutral .f32 hφ) (r : Fin 512) :
    multiReduction .maximumf [1] S512 X 0xFF800000#32 h hφ hacc (ix1 r) = LeakyRow.rowMax (fun k => X (ix2 r k)) := by
  refine (Ideal.multiReduction_maximumf_single X 0xFF800000#32 h hφ hacc (ix1 r)).trans ?_
  unfold LeakyRow.rowMax
  have e : (fun k : Fin 2048 => X (h.lift (ix1 r) k)) = fun k => X (ix2 r k) :=
    funext fun k => congrArg X (funext fun a => Fin.ext (by match a with | ⟨0, _⟩ => rfl | ⟨1, _⟩ => rfl))
  exact congrArg (fun f : Fin 2048 → EReal => (Finset.univ : Finset (Fin 2048)).fold max (Ideal.ofBits .f32 0xFF800000#32) f) e

/-- A row's sum over its 2048 entries. -/
theorem rowsum_apply (X : FVec Ideal S512x2048 .f32) (h : S512x2048.Reduces [1] S512) (hφ : FKind.Formats .f32)
    (hacc : (0x00000000#32 : BitVec 32) = FKind.add.neutral .f32 hφ) (r : Fin 512) :
    multiReduction .add [1] S512 X 0x00000000#32 h hφ hacc (ix1 r) = ∑ k : Fin 2048, X (ix2 r k) := by
  refine (Ideal.multiReduction_add_single X 0x00000000#32 h hφ hacc (ix1 r)).trans ?_
  show ∑ k : Fin 2048, X (h.lift (ix1 r) k) = _
  refine Finset.sum_congr rfl fun k _ => congrArg X (funext fun a => Fin.ext ?_)
  match a with | ⟨0, _⟩ => rfl | ⟨1, _⟩ => rfl

end Cert.KernelIdeal.Tile

end
-- ==== Proof.TileValue.lean ====
/-
  What one grid point computes, as the row specification.

  The blocks a grid point loads are variables here: P0 the query tile [1,1,512,64], P1 the key block [1,1,2048,64],
  P2 the additive-mask row [1,1,2048], P3 the head's constant [1,1,1,1], PV the value block [1,1,2048,64]. Row r
  of the tile has the scores `tileScore P0 P1 P2 r`: the row specification's `score` of the tile's row r against
  the key block and the mask row. Every later value of the body is then the specification's function of that
  row of scores: the row maximum, exp (score - max), the leaky denominator, the probabilities (the block the
  body stores for its second result) and the probabilities' product with the value block (its first result).
-/
import proofs.«150478_j40973988004726_1_alg».proof.Proof.Gen.KernelIdeal.Value
import proofs.«150478_j40973988004726_1_alg».proof.Proof.Tile

noncomputable section

namespace Cert.KernelIdeal.TileValue

open Cert.KernelIdeal Cert.KernelIdeal.Gen Idealize.ShloMosaic Idealize.ShloMosaic.ValueIdx

/-- The scores of tile row `r` against the 2048 keys. -/
def tileScore (P0 : Vec Ideal S1x1x512x64 .f32) (P1 : Vec Ideal S1x1x2048x64 .f32) (P2 : Vec Ideal S1x1x2048 .f32)
    (r : Fin 512) : Fin 2048 → EReal :=
  LeakyRow.score (fun d => P0 (ix4 0 0 r d)) (fun k d => P1 (ix4 0 0 k d)) (fun k => P2 (ix3 0 0 k))

variable (P0 : Vec Ideal S1x1x512x64 .f32) (P1 : Vec Ideal S1x1x2048x64 .f32) (P2 : Vec Ideal S1x1x2048 .f32)
  (P3 : Vec Ideal S1x1x1x1 .f32) (PV : Vec Ideal S1x1x2048x64 .f32)

/-- The masked, scaled scores (`%16`) at (r, k). -/
theorem scores_apply (r : Fin 512) (k : Fin 2048) : k0_pay5 (F := Ideal) P0 P1 P2 (ix2 r k) = tileScore P0 P1 P2 r k := by
  have e1 := Tile.qk_apply (truncf .bf16 (shapeCast S512x64 P0 shapeCasts_S1x1x512x64_S512x64) bitsLt_bf16_f32)
    (transpose S64x2048 [1, 0] (truncf .bf16 (shapeCast S2048x64 P1 shapeCasts_S1x1x2048x64_S2048x64) bitsLt_bf16_f32) transposes_S2048x64_p1_0_S64x2048) r k
  have e2 := Tile.mask_row P2 shapeCasts_S1x1x2048_S1x2048 broadcasts_S1x2048_S512x2048 r k
  have e3 : ∀ d : Fin 64, (truncf .bf16 (shapeCast S512x64 P0 shapeCasts_S1x1x512x64_S512x64) bitsLt_bf16_f32 : FVec Ideal S512x64 .bf16) (ix2 r d)
      * (transpose S64x2048 [1, 0] (truncf .bf16 (shapeCast S2048x64 P1 shapeCasts_S1x1x2048x64_S2048x64) bitsLt_bf16_f32) transposes_S2048x64_p1_0_S64x2048 : FVec Ideal S64x2048 .bf16) (ix2 d k)
      = P0 (ix4 0 0 r d) * P1 (ix4 0 0 k d) := fun d =>
    congrArg₂ (· * ·) (Tile.cast_q P0 _ r d) ((Tile.transpose_k _ _ d k).trans (Tile.cast_kv P1 _ k d))
  unfold k0_pay5 tileScore LeakyRow.score
  refine congrArg₂ (· + ·) (congrArg (· * Ideal.ofBits .f32 0x3E000000#32) (e1.trans (Finset.sum_congr rfl fun d _ => e3 d))) e2

/-- The row maximum (`%19`) at r. -/
theorem max_apply (r : Fin 512) :
    multiReduction .maximumf [1] S512 (k0_pay5 (F := Ideal) P0 P1 P2) 0xFF800000#32 reduces_S512x2048_S512 (.inl rfl) rfl (ix1 r)
      = LeakyRow.rowMax (tileScore P0 P1 P2 r) :=
  (Tile.rowmax_apply _ _ _ _ r).trans (congrArg LeakyRow.rowMax (funext fun k => scores_apply P0 P1 P2 r k))

/-- The row maximum kept as a column (`%20`) at (r, 0). -/
theorem maxcol_apply (r : Fin 512) : k0_pay6 (F := Ideal) P0 P1 P2 (ix2 r 0) = LeakyRow.rowMax (tileScore P0 P1 P2 r) := by
  unfold k0_pay6
  exact (Tile.col_cast _ _ r).trans (max_apply P0 P1 P2 r)

/-- exp (score - max) (`%23`) at (r, k). -/
theorem expo_apply (r : Fin 512) (k : Fin 2048) : k0_pay7 (F := Ideal) P0 P1 P2 (ix2 r k) = LeakyRow.expo (tileScore P0 P1 P2 r) k := by
  unfold k0_pay7 LeakyRow.expo
  exact congrArg Ideal.exp (congrArg₂ (· - ·) (scores_apply P0 P1 P2 r k) ((Tile.col_bcast _ _ r k).trans (maxcol_apply P0 P1 P2 r)))

/-- The leaky denominator, copied across the keys (`%32`), at (r, k). -/
theorem denom_apply (r : Fin 512) (k : Fin 2048) :
    k0_pay8 (F := Ideal) P0 P1 P2 P3 (ix2 r k) = LeakyRow.denom (tileScore P0 P1 P2 r) (P3 (ix4 0 0 0 0)) := by
  unfold k0_pay8 LeakyRow.denom
  refine (Tile.col_bcast _ _ r k).trans ?_
  refine congrArg₂ (· + ·) ?_ (congrArg (· * Ideal.ofBits .f32 0x45000000#32) (congrArg Ideal.exp (congrArg₂ (· - ·) (Tile.extract_c P3 _) (maxcol_apply P0 P1 P2 r))))
  refine (Tile.col_cast _ _ r).trans ((Tile.rowsum_apply _ _ _ _ r).trans (Finset.sum_congr rfl fun k' _ => expo_apply P0 P1 P2 r k'))

/-- The probabilities' block (what the body stores for its second result) at block index (a, b, r, k). -/
theorem probs_apply (a b : Fin 1) (r : Fin 512) (k : Fin 2048) :
    Value.E6 (F := Ideal) P0 P1 P2 P3 (ix4 a b r k) = LeakyRow.prob (tileScore P0 P1 P2 r) (P3 (ix4 0 0 0 0)) k := by
  have i0 : Value.ix6_0 (ix4 a b r k) = ix2 r k := funext fun x => Fin.ext (by match x with | ⟨0, _⟩ => rfl | ⟨1, _⟩ => rfl)
  have i1 : Value.ix6_1 (ix4 a b r k) = ix1 r := funext fun x => Fin.ext (by match x with | ⟨0, _⟩ => rfl)
  have i2 : Value.ix6_2 (ix4 a b r k) = ix2 r k := funext fun x => Fin.ext (by match x with | ⟨0, _⟩ => rfl | ⟨1, _⟩ => rfl)
  unfold LeakyRow.prob LeakyRow.expo
  exact congrArg₂ Ideal.div
    (congrArg Ideal.exp (congrArg₂ (· - ·) ((congrArg (k0_pay5 (F := Ideal) P0 P1 P2) i0).trans (scores_apply P0 P1 P2 r k))
      ((congrArg (multiReduction .maximumf [1] S512 (k0_pay5 (F := Ideal) P0 P1 P2) 0xFF800000#32 reduces_S512x2048_S512 (.inl rfl) rfl) i1).trans (max_apply P0 P1 P2 r))))
    ((congrArg (k0_pay8 (F := Ideal) P0 P1 P2 P3) i2).trans (denom_apply P0 P1 P2 P3 r k))

/-- The outputs' block (what the body stores for its first result) at block index (a, b, r, d): the probabilities of
    row r against the value block's column d. -/
theorem outs_apply (a b : Fin 1) (r : Fin 512) (d : Fin 64) :
    k0_pay3 (F := Ideal) (k0_pay4 PV) (k0_pay7 P0 P1 P2) (k0_pay8 P0 P1 P2 P3) (ix4 a b r d)
      = LeakyRow.outv (tileScore P0 P1 P2 r) (P3 (ix4 0 0 0 0)) (fun k d => PV (ix4 0 0 k d)) d := by
  unfold k0_pay3 LeakyRow.outv
  refine (Tile.uncast_out _ _ a b r d).trans ?_
  refine (Tile.pv_apply _ _ r d).trans (Finset.sum_congr rfl fun k _ => ?_)
  refine congrArg₂ (· * ·) ?_ ?_
  · unfold LeakyRow.prob
    exact congrArg₂ Ideal.div (expo_apply P0 P1 P2 r k) (denom_apply P0 P1 P2 P3 r k)
  · unfold k0_pay4
    exact Tile.cast_kv PV _ k d

/-! ## The staging buffers after the body, over variable input blocks -/

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The second result's buffer holds row r's probabilities. -/
theorem out_probs (x0 : Vec Ideal S1x1x512x64 .f32) (x1 x2 : Vec Ideal S1x1x2048x64 .f32) (x3 : Vec Ideal S1x1x2048 .f32)
    (x4 : Vec Ideal S1x1x1x1 .f32) (a b : Fin 1) (r : Fin 512) (k : Fin 2048) :
    out0_6 (F := Ideal) x0 x1 x2 x3 x4 (ix4 a b r k) = LeakyRow.prob (tileScore x0 x1 x3 r) (x4 (ix4 0 0 0 0)) k := by
  unfold out0_6
  refine (Value.canon6_eq _ _ _ _ (ix4 a b r k)).trans ?_
  simp only [View.ld_unit_zero (S := S1x1x512x64) hz4, View.ld_unit_zero (S := S1x1x2048x64) hz4,
    View.ld_unit_zero (S := S1x1x2048) hz3, View.ld_unit_zero (S := S1x1x1x1) hz4]
  exact probs_apply x0 x1 x3 x4 a b r k

/-- The first result's buffer holds row r's outputs. -/
theorem out_outs (x0 : Vec Ideal S1x1x512x64 .f32) (x1 x2 : Vec Ideal S1x1x2048x64 .f32) (x3 : Vec Ideal S1x1x2048 .f32)
    (x4 : Vec Ideal S1x1x1x1 .f32) (a b : Fin 1) (r : Fin 512) (d : Fin 64) :
    out0_5 (F := Ideal) x0 x1 x2 x3 x4 (ix4 a b r d)
      = LeakyRow.outv (tileScore x0 x1 x3 r) (x4 (ix4 0 0 0 0)) (fun k d => x2 (ix4 0 0 k d)) d := by
  unfold out0_5
  rw [View.canon_unit_zero hz4]
  simp only [View.ld_unit_zero (S := S1x1x512x64) hz4, View.ld_unit_zero (S := S1x1x2048x64) hz4,
    View.ld_unit_zero (S := S1x1x2048) hz3, View.ld_unit_zero (S := S1x1x1x1) hz4]
  exact outs_apply x0 x1 x3 x4 x2 a b r d

end Cert.KernelIdeal.TileValue

end
-- ==== Proof.LeakyArrays.lean ====
/-
  The two results as functions of the argument arrays.

  The arrays: queries, keys, values [2,16,2048,64] (batch, head, position, feature), the heads' constants
  [1,16,1,1], and an integer mask [2,2048] over (batch, key). Key k of batch b gets the additive mask term
  (mask b k) · (-1e9). Row (b, h, q) has the scores of query (b, h, q) against the keys of (b, h) with that mask
  term; its probabilities and its output row are the row specification's, with the head's constant and the values
  of (b, h).
-/
import proofs.«150478_j40973988004726_1_alg».proof.Proof.LeakyRow
import Idealize.ShloMosaic.Lib.ValueIdx

noncomputable section

namespace Cert.LeakyArrays

open Idealize.ShloMosaic Idealize.ShloMosaic.ValueIdx

abbrev Arr4 := (⟨4, ![2, 16, 2048, 64]⟩ : Shape).Idx → EReal
abbrev ArrC := (⟨4, ![1, 16, 1, 1]⟩ : Shape).Idx → EReal
abbrev ArrM := (⟨2, ![2, 2048]⟩ : Shape).Idx → BitVec 32

/-- The additive mask term of key `k` in batch `b`: the mask's integer, as a real, times -1e9. -/
def maskTerm (Mk : ArrM) (b : Fin 2) (k : Fin 2048) : EReal :=
  FloatOps.sitofp (F := Ideal) .f32 (Mk (ix2 b k)) * Ideal.ofBits .f32 0xCE6E6B28#32

/-- The scores of query (b, h, q) against the 2048 keys of (b, h). -/
def arrScore (Q K : Arr4) (Mk : ArrM) (b : Fin 2) (h : Fin 16) (q : Fin 2048) : Fin 2048 → EReal :=
  LeakyRow.score (fun d => Q (ix4 b h q d)) (fun k d => K (ix4 b h k d)) (maskTerm Mk b)

/-- The probability of key k for query (b, h, q). -/
def probsAt (Q K : Arr4) (C : ArrC) (Mk : ArrM) (b : Fin 2) (h : Fin 16) (q k : Fin 2048) : EReal :=
  LeakyRow.prob (arrScore Q K Mk b h q) (C (ix4 0 h 0 0)) k

/-- Feature d of the output of query (b, h, q). -/
def outAt (Q K V : Arr4) (C : ArrC) (Mk : ArrM) (b : Fin 2) (h : Fin 16) (q : Fin 2048) (d : Fin 64) : EReal :=
  LeakyRow.outv (arrScore Q K Mk b h q) (C (ix4 0 h 0 0)) (fun k d => V (ix4 b h k d)) d

/-- The probabilities' array [2,16,2048,2048]. -/
def probsArr (Q K : Arr4) (C : ArrC) (Mk : ArrM) : (⟨4, ![2, 16, 2048, 2048]⟩ : Shape).Idx → EReal :=
  fun i => probsAt Q K C Mk (i 0) (i 1) (i 2) (i 3)

/-- The outputs' array [2,16,2048,64]. -/
def outArr (Q K V : Arr4) (C : ArrC) (Mk : ArrM) : (⟨4, ![2, 16, 2048, 64]⟩ : Shape).Idx → EReal :=
  fun i => outAt Q K V C Mk (i 0) (i 1) (i 2) (i 3)

theorem probsArr_ix (Q K : Arr4) (C : ArrC) (Mk : ArrM) (b : Fin 2) (h : Fin 16) (q k : Fin 2048) :
    probsArr Q K C Mk (ix4 b h q k) = probsAt Q K C Mk b h q k := rfl

theorem outArr_ix (Q K V : Arr4) (C : ArrC) (Mk : ArrM) (b : Fin 2) (h : Fin 16) (q : Fin 2048) (d : Fin 64) :
    outArr Q K V C Mk (ix4 b h q d) = outAt Q K V C Mk b h q d := rfl

end Cert.LeakyArrays

end
-- ==== Proof.ArrayValue.lean ====
/-
  From the grid points' blocks to the two result arrays.

  The grid is (batch 2) × (head 16) × (query tile 4): point t works on batch t / 64, head (t / 4) mod 16 and the
  512 query rows from (t mod 4) · 512 on. Its query tile is rows of the queries at that (batch, head); its key and
  value blocks are all 2048 positions of that (batch, head); its mask row is the batch's row of the mask term the
  host computed before the call (mask · -1e9); its constant is the head's. So row r of the tile has exactly the
  scores of query (batch, head, (t mod 4) · 512 + r) of the array-level specification, and what the point writes
  back is its block of the specification's two arrays. The 128 blocks of each result tile its array, so after the
  run each result array IS the specification's.
-/
import proofs.«150478_j40973988004726_1_alg».proof.Proof.Gen.KernelIdeal.Value
import proofs.«150478_j40973988004726_1_alg».proof.Proof.TileValue
import proofs.«150478_j40973988004726_1_alg».proof.Proof.LeakyArrays
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.LeakyArrays Cert.KernelIdeal.TileValue

variable (m : (ℓ : Loc nD τ sig) → Buf (Elt Ideal) ℓ) (ρ : Dev nD → PrngReg)

/-! ## The index maps, decided over the grid -/

theorem index0 : ∀ t : Fin cfg0.N, win0_0.index t = ![t.val / 64, t.val / 4 % 16, t.val % 4, 0] :=
  (by decide +kernel : ∀ t : Fin grid0.N, win0_0.index t = ![t.val / 64, t.val / 4 % 16, t.val % 4, 0])
theorem index1 : ∀ t : Fin cfg0.N, win0_1.index t = ![t.val / 64, t.val / 4 % 16, 0, 0] :=
  (by decide +kernel : ∀ t : Fin grid0.N, win0_1.index t = ![t.val / 64, t.val / 4 % 16, 0, 0])
theorem index2 : ∀ t : Fin cfg0.N, win0_2.index t = ![t.val / 64, t.val / 4 % 16, 0, 0] :=
  (by decide +kernel : ∀ t : Fin grid0.N, win0_2.index t = ![t.val / 64, t.val / 4 % 16, 0, 0])
theorem index3 : ∀ t : Fin cfg0.N, win0_3.index t = ![t.val / 64, 0, 0] :=
  (by decide +kernel : ∀ t : Fin grid0.N, win0_3.index t = ![t.val / 64, 0, 0])
theorem index4 : ∀ t : Fin cfg0.N, win0_4.index t = ![0, t.val / 4 % 16, 0, 0] :=
  (by decide +kernel : ∀ t : Fin grid0.N, win0_4.index t = ![0, t.val / 4 % 16, 0, 0])
theorem index5 : ∀ t : Fin cfg0.N, win0_5.index t = ![t.val / 64, t.val / 4 % 16, t.val % 4, 0] :=
  (by decide +kernel : ∀ t : Fin grid0.N, win0_5.index t = ![t.val / 64, t.val / 4 % 16, t.val % 4, 0])
theorem index6 : ∀ t : Fin cfg0.N, win0_6.index t = ![t.val / 64, t.val / 4 % 16, t.val % 4, 0] :=
  (by decide +kernel : ∀ t : Fin grid0.N, win0_6.index t = ![t.val / 64, t.val / 4 % 16, t.val % 4, 0])

theorem t_lt (t : Fin cfg0.N) : t.val < 128 := lt_of_lt_of_eq t.isLt N_0

/-- Point t's batch, head, and the array row of its tile's row r. -/
def bT (t : Fin cfg0.N) : Fin 2 := ⟨t.val / 64, by have := t_lt t; omega⟩
def hT (t : Fin cfg0.N) : Fin 16 := ⟨t.val / 4 % 16, by omega⟩
def qT (t : Fin cfg0.N) (r : Fin 512) : Fin 2048 := ⟨t.val % 4 * 512 + r.val, by have := r.isLt; omega⟩

/-! ## The blocks a point reads -/

theorem read_q (c : Dev nD) (t : Fin cfg0.N) (r : Fin 512) (d : Fin 64) :
    iblk m c 0 t (ix4 0 0 r d) = (m ((c : Thread nD τ).loc main_arg0)) (ix4 (bT t) (hT t) (qT t r) d) := by
  show V m c main_arg0 (((cfg0.win 0).blk t).view.emb (ix4 0 0 r d)) = _
  rw [V_main_arg0]
  refine congrArg _ (funext fun a => Fin.ext ?_)
  have e := index0 t
  match a with
  | ⟨0, _⟩ => show win0_0.index t (0 : Fin 4) * 1 + 1 * 0 = t.val / 64; rw [e]; show t.val / 64 * 1 + 1 * 0 = _; omega
  | ⟨1, _⟩ => show win0_0.index t (1 : Fin 4) * 1 + 1 * 0 = t.val / 4 % 16; rw [e]; show t.val / 4 % 16 * 1 + 1 * 0 = _; omega
  | ⟨2, _⟩ => show win0_0.index t (2 : Fin 4) * 512 + 1 * r.val = t.val % 4 * 512 + r.val; rw [e]; show t.val % 4 * 512 + 1 * r.val = _; omega
  | ⟨3, _⟩ => show win0_0.index t (3 : Fin 4) * 64 + 1 * d.val = d.val; rw [e]; show 0 * 64 + 1 * d.val = _; omega

theorem read_k (c : Dev nD) (t : Fin cfg0.N) (k : Fin 2048) (d : Fin 64) :
    iblk m c 1 t (ix4 0 0 k d) = (m ((c : Thread nD τ).loc main_arg1)) (ix4 (bT t) (hT t) k d) := by
  show V m c main_arg1 (((cfg0.win 1).blk t).view.emb (ix4 0 0 k d)) = _
  rw [V_main_arg1]
  refine congrArg _ (funext fun a => Fin.ext ?_)
  have e := index1 t
  match a with
  | ⟨0, _⟩ => show win0_1.index t (0 : Fin 4) * 1 + 1 * 0 = t.val / 64; rw [e]; show t.val / 64 * 1 + 1 * 0 = _; omega
  | ⟨1, _⟩ => show win0_1.index t (1 : Fin 4) * 1 + 1 * 0 = t.val / 4 % 16; rw [e]; show t.val / 4 % 16 * 1 + 1 * 0 = _; omega
  | ⟨2, _⟩ => show win0_1.index t (2 : Fin 4) * 2048 + 1 * k.val = k.val; rw [e]; show 0 * 2048 + 1 * k.val = _; omega
  | ⟨3, _⟩ => show win0_1.index t (3 : Fin 4) * 64 + 1 * d.val = d.val; rw [e]; show 0 * 64 + 1 * d.val = _; omega

theorem read_v (c : Dev nD) (t : Fin cfg0.N) (k : Fin 2048) (d : Fin 64) :
    iblk m c 2 t (ix4 0 0 k d) = (m ((c : Thread nD τ).loc main_arg2)) (ix4 (bT t) (hT t) k d) := by
  show V m c main_arg2 (((cfg0.win 2).blk t).view.emb (ix4 0 0 k d)) = _
  rw [V_main_arg2]
  refine congrArg _ (funext fun a => Fin.ext ?_)
  have e := index2 t
  match a with
  | ⟨0, _⟩ => show win0_2.index t (0 : Fin 4) * 1 + 1 * 0 = t.val / 64; rw [e]; show t.val / 64 * 1 + 1 * 0 = _; omega
  | ⟨1, _⟩ => show win0_2.index t (1 : Fin 4) * 1 + 1 * 0 = t.val / 4 % 16; rw [e]; show t.val / 4 % 16 * 1 + 1 * 0 = _; omega
  | ⟨2, _⟩ => show win0_2.index t (2 : Fin 4) * 2048 + 1 * k.val = k.val; rw [e]; show 0 * 2048 + 1 * k.val = _; omega
  | ⟨3, _⟩ => show win0_2.index t (3 : Fin 4) * 64 + 1 * d.val = d.val; rw [e]; show 0 * 64 + 1 * d.val = _; omega

theorem read_c (c : Dev nD) (t : Fin cfg0.N) :
    iblk m c 4 t (ix4 0 0 0 0) = (m ((c : Thread nD τ).loc main_arg3)) (ix4 0 (hT t) 0 0) := by
  show V m c main_arg3 (((cfg0.win 4).blk t).view.emb (ix4 0 0 0 0)) = _
  rw [V_main_arg3]
  refine congrArg _ (funext fun a => Fin.ext ?_)
  have e := index4 t
  match a with
  | ⟨0, _⟩ => show win0_4.index t (0 : Fin 4) * 1 + 1 * 0 = 0; rw [e]; rfl
  | ⟨1, _⟩ => show win0_4.index t (1 : Fin 4) * 1 + 1 * 0 = t.val / 4 % 16; rw [e]; show t.val / 4 % 16 * 1 + 1 * 0 = _; omega
  | ⟨2, _⟩ => show win0_4.index t (2 : Fin 4) * 1 + 1 * 0 = 0; rw [e]; rfl
  | ⟨3, _⟩ => show win0_4.index t (3 : Fin 4) * 1 + 1 * 0 = 0; rw [e]; rfl

/-- The mask term's array [2,1,2048], as the host operations before the call leave it. -/
theorem V_mask (c : Dev nD) : (V m c main_v3 : S2x1x2048.Idx → EReal)
    = broadcastInDim S2x1x2048 ![0, 2] bcast_S2x2048_S2x1x2048_0_2
        (mulf (sitofp (F := Ideal) .f32 (m ((c : Thread nD τ).loc main_arg4))) (broadcastInDim S2x2048 ![] bcast_S_S2x2048 (constant (F := Ideal) S_ .f32 0xCE6E6B28#32))) := by
  dsimp only [Gen.V, Gen.hostOps0]; after_results

theorem mask_value (c : Dev nD) (b : Fin 2) (k : Fin 2048) :
    (V m c main_v3 : S2x1x2048.Idx → EReal) (ix3 b 0 k) = maskTerm (m ((c : Thread nD τ).loc main_arg4)) b k := by
  rw [V_mask]
  refine (broadcastInDim_apply _ bcast_S2x2048_S2x1x2048_0_2 _ (ix3 b 0 k) (ix2 b k) (fun a => match a with
    | ⟨0, _⟩ => by show b.val = (if (2 : Nat) = 1 then 0 else b.val); rw [if_neg (by decide)]
    | ⟨1, _⟩ => by show k.val = (if (2048 : Nat) = 1 then 0 else k.val); rw [if_neg (by decide)])).trans ?_
  unfold maskTerm
  refine congrArg (FloatOps.sitofp (F := Ideal) .f32 ((m ((c : Thread nD τ).loc main_arg4)) (ix2 b k)) * ·) ?_
  exact broadcastInDim_apply _ bcast_S_S2x2048 (constant (F := Ideal) S_ .f32 0xCE6E6B28#32) (ix2 b k) ix0 (fun a => a.elim0)

theorem read_mask (c : Dev nD) (t : Fin cfg0.N) (k : Fin 2048) :
    iblk m c 3 t (ix3 0 0 k) = maskTerm (m ((c : Thread nD τ).loc main_arg4)) (bT t) k := by
  refine Eq.trans ?_ (mask_value m c (bT t) k)
  show V m c main_v3 (((cfg0.win 3).blk t).view.emb (ix3 0 0 k)) = _
  refine congrArg _ (funext fun a => Fin.ext ?_)
  have e := index3 t
  match a with
  | ⟨0, _⟩ => show win0_3.index t (0 : Fin 3) * 1 + 1 * 0 = t.val / 64; rw [e]; show t.val / 64 * 1 + 1 * 0 = _; omega
  | ⟨1, _⟩ => show win0_3.index t (1 : Fin 3) * 1 + 1 * 0 = 0; rw [e]; rfl
  | ⟨2, _⟩ => show win0_3.index t (2 : Fin 3) * 2048 + 1 * k.val = k.val; rw [e]; show 0 * 2048 + 1 * k.val = _; omega

/-- So row r of point t's tile has the scores of query (batch, head, row) of the arrays. -/
theorem tile_scores (c : Dev nD) (t : Fin cfg0.N) (r : Fin 512) :
    tileScore (iblk m c 0 t) (iblk m c 1 t) (iblk m c 3 t) r
      = arrScore (m ((c : Thread nD τ).loc main_arg0)) (m ((c : Thread nD τ).loc main_arg1)) (m ((c : Thread nD τ).loc main_arg4)) (bT t) (hT t) (qT t r) := by
  unfold tileScore arrScore
  have eq : (fun d : Fin 64 => iblk m c 0 t (ix4 0 0 r d)) = fun d => (m ((c : Thread nD τ).loc main_arg0)) (ix4 (bT t) (hT t) (qT t r) d) :=
    funext fun d => read_q m c t r d
  have ek : (fun (k : Fin 2048) (d : Fin 64) => iblk m c 1 t (ix4 0 0 k d)) = fun k d => (m ((c : Thread nD τ).loc main_arg1)) (ix4 (bT t) (hT t) k d) :=
    funext fun k => funext fun d => read_k m c t k d
  have em : (fun k : Fin 2048 => iblk m c 3 t (ix3 0 0 k)) = maskTerm (m ((c : Thread nD τ).loc main_arg4)) (bT t) :=
    funext fun k => read_mask m c t k
  rw [eq, ek, em]

/-! ## Where a point's blocks sit in the result arrays -/

theorem emb_probs (t : Fin cfg0.N) (a b : Fin 1) (r : Fin 512) (k : Fin 2048) :
    ((cfg0.win 6).blk t).view.emb (ix4 a b r k) = ix4 (bT t) (hT t) (qT t r) k := by
  funext x; apply Fin.ext
  have e := index6 t
  have ha := a.isLt; have hb := b.isLt
  match x with
  | ⟨0, _⟩ => show win0_6.index t (0 : Fin 4) * 1 + 1 * a.val = t.val / 64; rw [e]; show t.val / 64 * 1 + 1 * a.val = _; omega
  | ⟨1, _⟩ => show win0_6.index t (1 : Fin 4) * 1 + 1 * b.val = t.val / 4 % 16; rw [e]; show t.val / 4 % 16 * 1 + 1 * b.val = _; omega
  | ⟨2, _⟩ => show win0_6.index t (2 : Fin 4) * 512 + 1 * r.val = t.val % 4 * 512 + r.val; rw [e]; show t.val % 4 * 512 + 1 * r.val = _; omega
  | ⟨3, _⟩ => show win0_6.index t (3 : Fin 4) * 2048 + 1 * k.val = k.val; rw [e]; show 0 * 2048 + 1 * k.val = _; omega

theorem emb_outs (t : Fin cfg0.N) (a b : Fin 1) (r : Fin 512) (d : Fin 64) :
    ((cfg0.win 5).blk t).view.emb (ix4 a b r d) = ix4 (bT t) (hT t) (qT t r) d := by
  funext x; apply Fin.ext
  have e := index5 t
  have ha := a.isLt; have hb := b.isLt
  match x with
  | ⟨0, _⟩ => show win0_5.index t (0 : Fin 4) * 1 + 1 * a.val = t.val / 64; rw [e]; show t.val / 64 * 1 + 1 * a.val = _; omega
  | ⟨1, _⟩ => show win0_5.index t (1 : Fin 4) * 1 + 1 * b.val = t.val / 4 % 16; rw [e]; show t.val / 4 % 16 * 1 + 1 * b.val = _; omega
  | ⟨2, _⟩ => show win0_5.index t (2 : Fin 4) * 512 + 1 * r.val = t.val % 4 * 512 + r.val; rw [e]; show t.val % 4 * 512 + 1 * r.val = _; omega
  | ⟨3, _⟩ => show win0_5.index t (3 : Fin 4) * 64 + 1 * d.val = d.val; rw [e]; show 0 * 64 + 1 * d.val = _; omega

/-! ## What a point writes back is its block of the specification's arrays -/

theorem flushed_probs (c : Dev nD) (t : Fin cfg0.N) :
    (dats m 0 c).flushed 6 t = ((cfg0.win 6).blk t).view.read (Elt Ideal)
      (probsArr (m ((c : Thread nD τ).loc main_arg0)) (m ((c : Thread nD τ).loc main_arg1)) (m ((c : Thread nD τ).loc main_arg3)) (m ((c : Thread nD τ).loc main_arg4))) := by
  rw [Value.flushed6]
  funext y
  obtain ⟨a, b, r, k, rfl⟩ : ∃ (a b : Fin 1) (r : Fin 512) (k : Fin 2048), y = ix4 a b r k := ⟨y 0, y 1, y 2, y 3, eq_ix4 y⟩
  show out0_6 (iblk m c 0 t) (iblk m c 1 t) (iblk m c 2 t) (iblk m c 3 t) (iblk m c 4 t) (ix4 a b r k)
    = probsArr (m ((c : Thread nD τ).loc main_arg0)) (m ((c : Thread nD τ).loc main_arg1)) (m ((c : Thread nD τ).loc main_arg3)) (m ((c : Thread nD τ).loc main_arg4)) (((cfg0.win 6).blk t).view.emb (ix4 a b r k))
  rw [emb_probs, probsArr_ix]
  refine (out_probs (iblk m c 0 t) (iblk m c 1 t) (iblk m c 2 t) (iblk m c 3 t) (iblk m c 4 t) a b r k).trans ?_
  unfold probsAt
  rw [tile_scores, read_c]

theorem flushed_outs (c : Dev nD) (t : Fin cfg0.N) :
    (dats m 0 c).flushed 5 t = ((cfg0.win 5).blk t).view.read (Elt Ideal)
      (outArr (m ((c : Thread nD τ).loc main_arg0)) (m ((c : Thread nD τ).loc main_arg1)) (m ((c : Thread nD τ).loc main_arg2)) (m ((c : Thread nD τ).loc main_arg3)) (m ((c : Thread nD τ).loc main_arg4))) := by
  rw [Value.flushed5]
  funext y
  obtain ⟨a, b, r, d, rfl⟩ : ∃ (a b : Fin 1) (r : Fin 512) (d : Fin 64), y = ix4 a b r d := ⟨y 0, y 1, y 2, y 3, eq_ix4 y⟩
  show out0_5 (iblk m c 0 t) (iblk m c 1 t) (iblk m c 2 t) (iblk m c 3 t) (iblk m c 4 t) (ix4 a b r d)
    = outArr (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb (ix4 a b r d))
  rw [emb_outs, outArr_ix]
  refine (out_outs (iblk m c 0 t) (iblk m c 1 t) (iblk m c 2 t) (iblk m c 3 t) (iblk m c 4 t) a b r d).trans ?_
  unfold outAt
  have ev : (fun (k : Fin 2048) (d : Fin 64) => iblk m c 2 t (ix4 0 0 k d)) = fun k d => (m ((c : Thread nD τ).loc main_arg2)) (ix4 (bT t) (hT t) k d) :=
    funext fun k => funext fun d => read_v m c t k d
  rw [tile_scores, read_c, ev]

/-! ## The blocks tile the result arrays -/

theorem mem_blk_probs (t : Fin cfg0.N) (i : S2x16x2048x2048.Idx) :
    i ∈ ((cfg0.win 6).blk t).view.set ↔ ∀ a : Fin 4, win0_6.index t a * S1x1x512x2048.size a ≤ (i a).val ∧ (i a).val < win0_6.index t a * S1x1x512x2048.size a + S1x1x512x2048.size a := by
  show i ∈ ((View.whole main_v4_1).slice (win0_6.rect t)).set ↔ _
  rw [View.set_slice_whole, Rect.mem_set_unit]
  exact Iff.rfl

theorem mem_blk_outs (t : Fin cfg0.N) (i : S2x16x2048x64.Idx) :
    i ∈ ((cfg0.win 5).blk t).view.set ↔ ∀ a : Fin 4, win0_5.index t a * S1x1x512x64.size a ≤ (i a).val ∧ (i a).val < win0_5.index t a * S1x1x512x64.size a + S1x1x512x64.size a := by
  show i ∈ ((View.whole main_v4_0).slice (win0_5.rect t)).set ↔ _
  rw [View.set_slice_whole, Rect.mem_set_unit]
  exact Iff.rfl

/-- The point that holds array row (b, h, q): ((b · 16) + h) · 4 + q / 512. -/
theorem cover_probs (i : S2x16x2048x2048.Idx) :
    ∃ t : Fin cfg0.N, (cfg0.win 6).flush t = true ∧ i ∈ ((cfg0.win 6).blk t).view.set := by
  have h0 : (i 0).val < 2 := (i 0).isLt
  have h1 : (i 1).val < 16 := (i 1).isLt
  have h2 : (i 2).val < 2048 := (i 2).isLt
  have h3 : (i 3).val < 2048 := (i 3).isLt
  have hlt : ((i 0).val * 16 + (i 1).val) * 4 + (i 2).val / 512 < 128 := by omega
  refine ⟨⟨((i 0).val * 16 + (i 1).val) * 4 + (i 2).val / 512, lt_of_lt_of_eq hlt N_0.symm⟩, flush0_6 _, ?_⟩
  rw [mem_blk_probs, index6]
  intro a
  match a with
  | ⟨0, _⟩ => show (((i 0).val * 16 + (i 1).val) * 4 + (i 2).val / 512) / 64 * 1 ≤ (i 0).val ∧ (i 0).val < (((i 0).val * 16 + (i 1).val) * 4 + (i 2).val / 512) / 64 * 1 + 1; omega
  | ⟨1, _⟩ => show (((i 0).val * 16 + (i 1).val) * 4 + (i 2).val / 512) / 4 % 16 * 1 ≤ (i 1).val ∧ (i 1).val < (((i 0).val * 16 + (i 1).val) * 4 + (i 2).val / 512) / 4 % 16 * 1 + 1; omega
  | ⟨2, _⟩ => show (((i 0).val * 16 + (i 1).val) * 4 + (i 2).val / 512) % 4 * 512 ≤ (i 2).val ∧ (i 2).val < (((i 0).val * 16 + (i 1).val) * 4 + (i 2).val / 512) % 4 * 512 + 512; omega
  | ⟨3, _⟩ => show 0 * 2048 ≤ (i 3).val ∧ (i 3).val < 0 * 2048 + 2048; omega

theorem cover_outs (i : S2x16x2048x64.Idx) :
    ∃ t : Fin cfg0.N, (cfg0.win 5).flush t = true ∧ i ∈ ((cfg0.win 5).blk t).view.set := by
  have h0 : (i 0).val < 2 := (i 0).isLt
  have h1 : (i 1).val < 16 := (i 1).isLt
  have h2 : (i 2).val < 2048 := (i 2).isLt
  have h3 : (i 3).val < 64 := (i 3).isLt
  have hlt : ((i 0).val * 16 + (i 1).val) * 4 + (i 2).val / 512 < 128 := by omega
  refine ⟨⟨((i 0).val * 16 + (i 1).val) * 4 + (i 2).val / 512, lt_of_lt_of_eq hlt N_0.symm⟩, flush0_5 _, ?_⟩
  rw [mem_blk_outs, index5]
  intro a
  match a with
  | ⟨0, _⟩ => show (((i 0).val * 16 + (i 1).val) * 4 + (i 2).val / 512) / 64 * 1 ≤ (i 0).val ∧ (i 0).val < (((i 0).val * 16 + (i 1).val) * 4 + (i 2).val / 512) / 64 * 1 + 1; omega
  | ⟨1, _⟩ => show (((i 0).val * 16 + (i 1).val) * 4 + (i 2).val / 512) / 4 % 16 * 1 ≤ (i 1).val ∧ (i 1).val < (((i 0).val * 16 + (i 1).val) * 4 + (i 2).val / 512) / 4 % 16 * 1 + 1; omega
  | ⟨2, _⟩ => show (((i 0).val * 16 + (i 1).val) * 4 + (i 2).val / 512) % 4 * 512 ≤ (i 2).val ∧ (i 2).val < (((i 0).val * 16 + (i 1).val) * 4 + (i 2).val / 512) % 4 * 512 + 512; omega
  | ⟨3, _⟩ => show 0 * 64 ≤ (i 3).val ∧ (i 3).val < 0 * 64 + 64; omega

/-! ## The result arrays after the run -/

theorem final_probs (c : Dev nD) : (dats m 0 c).arrAt 6 cfg0.N
    = probsArr (m ((c : Thread nD τ).loc main_arg0)) (m ((c : Thread nD τ).loc main_arg1)) (m ((c : Thread nD τ).loc main_arg3)) (m ((c : Thread nD τ).loc main_arg4)) :=
  (dats m 0 c).arrAt_eq_of_cover 6 _ (fun t _ => flushed_probs m c t) cover_probs

theorem final_outs (c : Dev nD) : (dats m 0 c).arrAt 5 cfg0.N
    = outArr (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 _ (fun t _ => flushed_outs m c t) cover_outs

/-- Every weakly fair execution of the kernel's program terminates with the two results at the specification's arrays
    of the arguments, the arguments unchanged. -/
theorem run : θ_run defs (onTc (τ := τ) (main (F := Ideal))) ⟨m, fun _ => 0, ρ⟩ fun r => ∀ c : Dev nD,
      r.2.mem ((c : Thread nD τ).loc main_v4_0) = outArr (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v4_1) = probsArr (m ((c : Thread nD τ).loc main_arg0)) (m ((c : Thread nD τ).loc main_arg1)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_outs m c), (h c).2.1.trans (final_probs m c), (h c).2.2⟩)
    (Value.run_blocks m ρ)

end Cert.KernelIdeal.ArrayValue

end
-- ==== Proof.RefValue.lean ====
/-
  The reference's stages, read at an index, as the array-level specification.

  The reference computes the whole score array [2,16,2048,2048] at once: one batched product of queries and keys,
  times 1/8, plus the mask's term copied over heads and queries. At (b, h, q, k) that is the specification's score
  of row (b, h, q) against key k. Its maximum over the last axis, from -∞, is the row's maximum; the stages after
  it (subtract, exponentiate, sum from 0, add the constant's term times 2048, divide) are the row
  specification's, entry by entry; the second batched product is the probabilities' combination of the values.
-/
import proofs.«150478_j40973988004726_1_alg».proof.Proof.Gen.ReferenceIdeal.Read
import proofs.«150478_j40973988004726_1_alg».proof.Proof.LeakyArrays
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.LeakyArrays

variable (x0 x1 x2 : (⟨S2x16x2048x64, .f32⟩ : BufTy).Contents (Elt Ideal)) (x3 : (⟨S1x16x1x1, .f32⟩ : BufTy).Contents (Elt Ideal))
  (x4 : (⟨S2x2048, .i32⟩ : BufTy).Contents (Elt Ideal))

/-! ## Where each stage reads its operand -/

theorem lidx0 (b : Fin 2) (h : Fin 16) (q k : Fin 2048) (d : Fin 64) : lidx_main_v0 (ix4 b h q k) d = ix4 b h q d :=
  funext fun a => Fin.ext (by match a with | ⟨0, _⟩ => rfl | ⟨1, _⟩ => rfl | ⟨2, _⟩ => rfl | ⟨3, _⟩ => rfl)
theorem ridx0 (b : Fin 2) (h : Fin 16) (q k : Fin 2048) (d : Fin 64) : ridx_main_v0 (ix4 b h q k) d = ix4 b h k d :=
  funext fun a => Fin.ext (by match a with | ⟨0, _⟩ => rfl | ⟨1, _⟩ => rfl | ⟨2, _⟩ => rfl | ⟨3, _⟩ => rfl)
theorem idx74 (b : Fin 2) (h : Fin 16) (q k : Fin 2048) : idx_main_v4 (idx_main_v7 (ix4 b h q k)) = ix2 b k :=
  funext fun a => Fin.ext (by match a with | ⟨0, _⟩ => rfl | ⟨1, _⟩ => rfl)
theorem idx10 (b : Fin 2) (h : Fin 16) (q : Fin 2048) (z : Fin 1) : idx_main_v10 (ix4 b h q z) = ix3 b h q :=
  funext fun a => Fin.ext (by match a with | ⟨0, _⟩ => rfl | ⟨1, _⟩ => rfl | ⟨2, _⟩ => rfl)
theorem idx11 (b : Fin 2) (h : Fin 16) (q k : Fin 2048) : idx_main_v11 (ix4 b h q k) = ix4 b h q 0 :=
  funext fun a => Fin.ext (by match a with | ⟨0, _⟩ => rfl | ⟨1, _⟩ => rfl | ⟨2, _⟩ => rfl | ⟨3, _⟩ => rfl)
theorem idx14 (b : Fin 2) (h : Fin 16) (q : Fin 2048) (z : Fin 1) : idx_main_v14 (ix4 b h q z) = ix4 0 h 0 0 :=
  funext fun a => Fin.ext (by match a with | ⟨0, _⟩ => rfl | ⟨1, _⟩ => rfl | ⟨2, _⟩ => rfl | ⟨3, _⟩ => rfl)
theorem idx19 (b : Fin 2) (h : Fin 16) (q k : Fin 2048) : idx_main_v19 (ix3 b h q) k = ix4 b h q k :=
  funext fun a => Fin.ext (by match a with | ⟨0, _⟩ => rfl | ⟨1, _⟩ => rfl | ⟨2, _⟩ => rfl | ⟨3, _⟩ => rfl)
theorem idx20 (b : Fin 2) (h : Fin 16) (q : Fin 2048) (z : Fin 1) : idx_main_v20 (ix4 b h q z) = ix3 b h q :=
  funext fun a => Fin.ext (by match a with | ⟨0, _⟩ => rfl | ⟨1, _⟩ => rfl | ⟨2, _⟩ => rfl)
theorem idx22 (b : Fin 2) (h : Fin 16) (q k : Fin 2048) : idx_main_v22 (ix4 b h q k) = ix4 b h q 0 :=
  funext fun a => Fin.ext (by match a with | ⟨0, _⟩ => rfl | ⟨1, _⟩ => rfl | ⟨2, _⟩ => rfl | ⟨3, _⟩ => rfl)
theorem lidx24 (b : Fin 2) (h : Fin 16) (q : Fin 2048) (d : Fin 64) (k : Fin 2048) : lidx_main_v24 (ix4 b h q d) k = ix4 b h q k :=
  funext fun a => Fin.ext (by match a with | ⟨0, _⟩ => rfl | ⟨1, _⟩ => rfl | ⟨2, _⟩ => rfl | ⟨3, _⟩ => rfl)
theorem ridx24 (b : Fin 2) (h : Fin 16) (q : Fin 2048) (d : Fin 64) (k : Fin 2048) : ridx_main_v24 (ix4 b h q d) k = ix4 b h k d :=
  funext fun a => Fin.ext (by match a with | ⟨0, _⟩ => rfl | ⟨1, _⟩ => rfl | ⟨2, _⟩ => rfl | ⟨3, _⟩ => rfl)

/-! ## The stages -/

/-- The masked, scaled scores (`%8`) at (b, h, q, k). -/
theorem scores_apply (b : Fin 2) (h : Fin 16) (q k : Fin 2048) :
    val_main_v8 (F := Ideal) x0 x1 x4 (ix4 b h q k) = arrScore x0 x1 x4 b h q k := by
  rw [val_main_v8_apply, val_main_v2_apply, val_main_v0_apply, val_main_v1_apply, val_main_cst_apply, val_main_v7_apply,
    val_main_v6_apply, val_main_v4_apply, val_main_v3_apply, val_main_v5_apply, val_main_cst_0_apply, idx74]
  simp only [lidx0, ridx0]
  rfl

/-- The row maximum (`%9`) at (b, h, q). -/
theorem max_apply (b : Fin 2) (h : Fin 16) (q : Fin 2048) :
    val_main_v9 (F := Ideal) x0 x1 x4 (ix3 b h q) = LeakyRow.rowMax (arrScore x0 x1 x4 b h q) := by
  unfold val_main_v9
  have hr : S2x16x2048x2048.Reduces [3] S2x16x2048 := by decide
  refine (Host.reduce_eq_fold_single (FloatOps.maximumf (F := Ideal) (φ := .f32)) (val_main_v8 (F := Ideal) x0 x1 x4)
    (val_main_cst_1 (F := Ideal)) reducesTo_S2x16x2048x2048_S2x16x2048_d3 hr h_S_ (ix3 b h q)).trans ?_
  unfold LeakyRow.rowMax
  have e : (fun k : Fin 2048 => val_main_v8 (F := Ideal) x0 x1 x4 (hr.lift (ix3 b h q) k)) = arrScore x0 x1 x4 b h q :=
    funext fun k => (congrArg (val_main_v8 (F := Ideal) x0 x1 x4) (funext fun a => Fin.ext (by
      match a with | ⟨0, _⟩ => rfl | ⟨1, _⟩ => rfl | ⟨2, _⟩ => rfl | ⟨3, _⟩ => rfl))).trans (scores_apply x0 x1 x4 b h q k)
  exact congrArg (fun f : Fin 2048 → EReal => (Finset.univ : Finset (Fin 2048)).fold max (Ideal.ofBits .f32 0xFF800000#32) f) e

/-- The row maximum kept with a unit last axis (`%10`). -/
theorem maxcol_apply (b : Fin 2) (h : Fin 16) (q : Fin 2048) (z : Fin 1) :
    val_main_v10 (F := Ideal) x0 x1 x4 (ix4 b h q z) = LeakyRow.rowMax (arrScore x0 x1 x4 b h q) := by
  rw [val_main_v10_apply, idx10]
  exact max_apply x0 x1 x4 b h q

/-- exp (score - max) (`%13`). -/
theorem expo_apply (b : Fin 2) (h : Fin 16) (q k : Fin 2048) :
    val_main_v13 (F := Ideal) x0 x1 x4 (ix4 b h q k) = LeakyRow.expo (arrScore x0 x1 x4 b h q) k := by
  rw [val_main_v13_apply, val_main_v12_apply, val_main_v11_apply, idx11, maxcol_apply, scores_apply]
  rfl

/-- The leaky denominator (`%21`). -/
theorem denom_apply (b : Fin 2) (h : Fin 16) (q : Fin 2048) (z : Fin 1) :
    val_main_v21 (F := Ideal) x0 x1 x3 x4 (ix4 b h q z) = LeakyRow.denom (arrScore x0 x1 x4 b h q) (x3 (ix4 0 h 0 0)) := by
  rw [val_main_v21_apply, val_main_v20_apply, idx20, val_main_v19_apply, val_main_v18_apply, val_main_v16_apply,
    val_main_v15_apply, val_main_v14_apply, idx14, maxcol_apply, val_main_v17_apply, val_main_cst_2_apply, val_main_cst_3_apply]
  simp only [idx19, expo_apply]
  unfold LeakyRow.denom
  rw [Ideal.ofBits_def, Ideal.ofBits_zero_f32, zero_add]
  rfl

/-- The probabilities (`%23`, the second result). -/
theorem probs_apply (b : Fin 2) (h : Fin 16) (q k : Fin 2048) :
    val_main_v23 (F := Ideal) x0 x1 x3 x4 (ix4 b h q k) = probsAt x0 x1 x3 x4 b h q k := by
  rw [val_main_v23_apply, val_main_v22_apply, idx22, denom_apply, expo_apply]
  rfl

/-- The outputs (`%24`, the first result). -/
theorem outs_apply (b : Fin 2) (h : Fin 16) (q : Fin 2048) (d : Fin 64) :
    val_main_v24 (F := Ideal) x0 x1 x2 x3 x4 (ix4 b h q d) = outAt x0 x1 x2 x3 x4 b h q d := by
  rw [val_main_v24_apply]
  simp only [lidx24, ridx24, probs_apply]
  rfl

/-! ## The two results, as arrays -/

theorem probs_eq : val_main_v23 (F := Ideal) x0 x1 x3 x4 = probsArr x0 x1 x3 x4 := by
  funext i
  obtain ⟨b, h, q, k, rfl⟩ : ∃ (b : Fin 2) (h : Fin 16) (q k : Fin 2048), i = ix4 b h q k := ⟨i 0, i 1, i 2, i 3, eq_ix4 i⟩
  exact (probs_apply x0 x1 x3 x4 b h q k).trans (probsArr_ix x0 x1 x3 x4 b h q k).symm

theorem outs_eq : val_main_v24 (F := Ideal) x0 x1 x2 x3 x4 = outArr x0 x1 x2 x3 x4 := by
  funext i
  obtain ⟨b, h, q, d, rfl⟩ : ∃ (b : Fin 2) (h : Fin 16) (q : Fin 2048) (d : Fin 64), i = ix4 b h q d := ⟨i 0, i 1, i 2, i 3, eq_ix4 i⟩
  exact (outs_apply x0 x1 x2 x3 x4 b h q d).trans (outArr_ix x0 x1 x2 x3 x4 b h q d).symm

end Cert.ReferenceIdeal.RefValue

end
-- ==== Proof.lean ====
/-
  The kernel and its reference compute the same attention with a leaky softmax, over the extended reals.

  Both take queries, keys and values [2,16,2048,64], a constant per head [1,16,1,1] and an integer mask [2,2048].
  For a query row (batch b, head h, position q) the score against key k is ⟨Q[b,h,q,:], K[b,h,k,:]⟩ / 8 plus
  mask[b,k] · (-1e9); with M the row's maximum, the probability of key k is
      exp (s_k - M) / (Σ_k' exp (s_k' - M) + exp (c_h - M) · 2048),
  and the output row is the probabilities' combination of V[b,h,:,:]. The two results are the outputs
  [2,16,2048,64] and the probabilities [2,16,2048,2048].

  The reference computes these with whole-array operations. The kernel works tile by tile: a grid of
  2 × 16 × 4 points, each taking 512 query rows of one (batch, head) against all 2048 keys, with the mask term
  computed beforehand. At the ideal values the roundings to bf16 in front of the two matrix products are the
  identity, a matrix product into a zero accumulator is the plain sum over the contracted axis, and a lane
  reduction is the fold (of max, from -∞) or the sum over the lane axis; so a tile's row and the reference's row
  are the same function of the same scores (LeakyRow), the tile's scores are the arrays' scores (ArrayValue) and
  the reference's stages are that function entry by entry (RefValue). No law of the extended reals beyond
  0 + x = x is used: the two programs apply the same operations in the same order to the same numbers, so the
  precondition (finite inputs) is not needed for the equality.

  The three frame claims are the generated frame runs; the idealization rewrote nothing, so there is nothing to
  preserve.
-/
import proofs.«150478_j40973988004726_1_alg».proof.Defs
import proofs.«150478_j40973988004726_1_alg».proof.Proof.Gen.Kernel
import proofs.«150478_j40973988004726_1_alg».proof.Proof.Gen.Kernel.Skeleton
import proofs.«150478_j40973988004726_1_alg».proof.Proof.Gen.Kernel.Launch
import proofs.«150478_j40973988004726_1_alg».proof.Proof.Gen.Kernel.Points
import proofs.«150478_j40973988004726_1_alg».proof.Proof.Gen.Kernel.Frame
import proofs.«150478_j40973988004726_1_alg».proof.Proof.Gen.KernelIdeal
import proofs.«150478_j40973988004726_1_alg».proof.Proof.Gen.KernelIdeal.Skeleton
import proofs.«150478_j40973988004726_1_alg».proof.Proof.Gen.KernelIdeal.Launch
import proofs.«150478_j40973988004726_1_alg».proof.Proof.Gen.KernelIdeal.Points
import proofs.«150478_j40973988004726_1_alg».proof.Proof.Gen.KernelIdeal.Frame
import proofs.«150478_j40973988004726_1_alg».proof.Proof.Gen.ReferenceIdeal
import proofs.«150478_j40973988004726_1_alg».proof.Proof.Gen.Pre_finite_inputs
import proofs.«150478_j40973988004726_1_alg».proof.Proof.Gen.KernelIdeal.Value
import proofs.«150478_j40973988004726_1_alg».proof.Proof.Gen.ReferenceIdeal.Run
import proofs.«150478_j40973988004726_1_alg».proof.Proof.Gen.ReferenceIdeal.Read
import proofs.«150478_j40973988004726_1_alg».proof.Proof.ArrayValue
import proofs.«150478_j40973988004726_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference is a straight line of host operations: its run, with the two results forgotten. -/
theorem frame_ri : Cert.frame_ReferenceIdeal := fun m ρ _ =>
  (θ_run Cert.ReferenceIdeal.defs _ _).mono (fun _ h c => (h c).2.2) (Cert.ReferenceIdeal.Value.run (F := Ideal) m ρ)

/-- From arguments that agree, the kernel's two result arrays and the reference's two results are the
    specification's outputs and probabilities of those arguments. -/
theorem algebraic : Cert.algebraic_KernelIdeal_ReferenceIdeal := by
  intro m ρ m' ρ' _ hagree
  refine ⟨_, _, Cert.KernelIdeal.ArrayValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v24_eq, Cert.ReferenceIdeal.RefValue.outs_eq,
      (hagree c).1, (hagree c).2.1, (hagree c).2.2.1, (hagree c).2.2.2.1, (hagree c).2.2.2.2]
  · rw [Cert.ReferenceIdeal.Read.val_main_v23_eq, Cert.ReferenceIdeal.RefValue.probs_eq,
      (hagree c).1, (hagree c).2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
